-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩

abbrev nBuf : Space → Nat
  | .hbm => 6
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_1_0_0_n_n_wf : DotDims.WF S10000x128 S128x128 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeTable.lean ====
/-
  The node table: node_repr = emb + (x · wᵀ + b), one row per node.

  x and emb have one row per node and 128 columns, w is 128 × 128 (one ROW of w per output column), b has 128
  entries. Entry (r, c) of the result is

      ( ∑ₖ x(r, k) · w(c, k)  +  b(c) )  +  emb(r, c),

  read at the extended reals. The entry depends on row r of x and of emb only, on row c of w, and on b(c): so the
  same expression computed on a block of consecutive rows of x and emb is that block of rows of the result
  (`entry_congr`), whatever the block height. The host program adds emb on the left and the block program on the
  right; addition of extended reals is commutative, so nothing about finiteness is needed.
-/
import Idealize.ShloMosaic.PureOps.Ideal
import Idealize.ShloMosaic.Lib.ValueIdx

noncomputable section

open scoped BigOperators

namespace Cert.NodeTable

open Idealize.ShloMosaic Idealize.ShloMosaic.ValueIdx

/-- Entry (r, c) of x · wᵀ + b + emb, for matrices of M rows; the bias is given as a function of the column. -/
def entry {M : Nat} (x emb : (⟨2, ![M, 128]⟩ : Shape).Idx → EReal) (w : (⟨2, ![128, 128]⟩ : Shape).Idx → EReal)
    (b : Fin 128 → EReal) (r : Fin M) (c : Fin 128) : EReal :=
  (∑ k : Fin 128, x (ix2 r k) * w (ix2 c k) + b c) + emb (ix2 r c)

/-- The whole table, index by index. -/
def nodeRepr (x emb : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => entry x emb w (fun c => b (ix1 c)) (i 0) (i 1)

/-- An entry is determined by one row of x, one entry of emb, one row of w and one entry of b: two sets of
    operands that agree on those give the same entry (a block of rows against the whole table). -/
theorem entry_congr {Mb M : Nat} {xb eb : (⟨2, ![Mb, 128]⟩ : Shape).Idx → EReal} {X E : (⟨2, ![M, 128]⟩ : Shape).Idx → EReal}
    {w w' : (⟨2, ![128, 128]⟩ : Shape).Idx → EReal} {b b' : Fin 128 → EReal} {r : Fin Mb} {R : Fin M} {c c' : Fin 128}
    (hx : ∀ k, xb (ix2 r k) = X (ix2 R k)) (he : eb (ix2 r c) = E (ix2 R c'))
    (hw : ∀ k, w (ix2 c k) = w' (ix2 c' k)) (hb : b c = b' c') :
    entry xb eb w b r c = entry X E w' b' R c' := by
  unfold entry
  rw [he, hb]
  exact congrArg (fun s => s + b' c' + E (ix2 R c')) (Finset.sum_congr rfl fun k _ => by rw [hx k, hw k])

end Cert.NodeTable

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.KernelBlock.lean ====
/-
  What the kernel body computes on one block of rows.

  The body loads a block of 10000 rows of x, the whole 128 × 128 matrix w, the bias as a 1 × 128 row and the same
  block of rows of emb, and stores  (x_blk · wᵀ + bias) + emb_blk.  The product contracts the second axis of BOTH
  operands, so its entry (r, c) is the sum over k of x_blk(r, k) · w(c, k); the bias row is repeated down the
  10000 rows, so its entry (r, c) is bias(0, c). Entry (r, c) of the stored block is therefore the node table's
  entry computed from the block's rows.
-/
import proofs.«177533_g1967095022088_cont_8to1_1261_19_alg».proof.Proof.Gen.KernelIdeal.Skeleton
import proofs.«177533_g1967095022088_cont_8to1_1261_19_alg».proof.Proof.NodeTable
import proofs.«177533_g1967095022088_cont_8to1_1261_19_alg».proof.Proof.LibOneAxisDot
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.NodeTable Cert.Lib.OneAxisDot

/-! ## The product's operand indices, from its dimension numbers -/

/-- The left operand's row is the output's row. -/
theorem lhs_row (j : S10000x128.Idx) (q : dot_S10000x128_S128x128_S10000x128_1_1_0_0_n_n.contr.Idx) :
    (dot_S10000x128_S128x128_S10000x128_1_1_0_0_n_n.lhsIdx j q 0).val = (j 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl

/-- The left operand's column is the contraction index. -/
theorem lhs_col (j : S10000x128.Idx) (q : dot_S10000x128_S128x128_S10000x128_1_1_0_0_n_n.contr.Idx) :
    (dot_S10000x128_S128x128_S10000x128_1_1_0_0_n_n.lhsIdx j q 1).val = (q ⟨0, by decide⟩).val :=
  dot_S10000x128_S128x128_S10000x128_1_1_0_0_n_n.lhsIdx_val_of_single rfl j q

/-- The right operand's ROW is the output's column: the product is with the transpose. -/
theorem rhs_row (j : S10000x128.Idx) (q : dot_S10000x128_S128x128_S10000x128_1_1_0_0_n_n.contr.Idx) :
    (dot_S10000x128_S128x128_S10000x128_1_1_0_0_n_n.rhsIdx j q 0).val = (j 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- The right operand's column is the contraction index. -/
theorem rhs_col (j : S10000x128.Idx) (q : dot_S10000x128_S128x128_S10000x128_1_1_0_0_n_n.contr.Idx) :
    (dot_S10000x128_S128x128_S10000x128_1_1_0_0_n_n.rhsIdx j q 1).val = (q ⟨0, by decide⟩).val :=
  dot_S10000x128_S128x128_S10000x128_1_1_0_0_n_n.rhsIdx_val_of_single rfl j q

/-! ## The body's operations at an entry -/

/-- Entry (r, c) of the block's product with wᵀ, accumulated into zero: the sum over k of x_blk(r, k) · w(c, k). -/
theorem product_apply (xb : FVec Ideal S10000x128 .f32) (wv : FVec Ideal S128x128 .f32) (r : Fin 10000) (c : Fin 128) :
    matmul dot_S10000x128_S128x128_S10000x128_1_1_0_0_n_n none xb wv (constant S10000x128 .f32 0x00000000#32) (ix2 r c)
      = ∑ k : Fin 128, xb (ix2 r k) * wv (ix2 c k) :=
  matmul_zero_apply_at dot_S10000x128_S128x128_S10000x128_1_1_0_0_n_n 128 rfl rfl none xb wv (ix2 r c)
    (fun k => ix2 r k) (fun k => ix2 c k)
    (fun k => funext fun a => Fin.ext (by
      have hk := contrEquiv1_symm_val dot_S10000x128_S128x128_S10000x128_1_1_0_0_n_n 128 rfl rfl k
      match a with
      | ⟨0, _⟩ => exact lhs_row _ _
      | ⟨1, _⟩ => exact (lhs_col _ _).trans hk))
    (fun k => funext fun a => Fin.ext (by
      have hk := contrEquiv1_symm_val dot_S10000x128_S128x128_S10000x128_1_1_0_0_n_n 128 rfl rfl k
      match a with
      | ⟨0, _⟩ => exact rhs_row _ _
      | ⟨1, _⟩ => exact (rhs_col _ _).trans hk))

/-- Entry (r, c) of the bias row repeated down the block's rows: bias(0, c). -/
theorem bias_apply (bv : FVec Ideal S1x128 .f32) (hs : S1x128.ShapeCasts S1x128) (hb : S1x128.Broadcasts S10000x128)
    (r : Fin 10000) (c : Fin 128) :
    broadcastTo S10000x128 (shapeCast S1x128 bv hs) hb (ix2 r c) = bv (ix2 0 c) := by
  rw [shapeCast_self]
  exact broadcastTo_apply bv hb (ix2 r c) (ix2 0 c) (fun a => by
    match a with
    | ⟨0, _⟩ => exact (if_pos rfl).symm
    | ⟨1, _⟩ => show c.val = if (128 : Nat) = 1 then 0 else c.val; rw [if_neg (by decide)])

/-- Entry (r, c) of what the body stores: the node table's entry computed from the block's rows of x and emb. -/
theorem payload_apply (xb eb : Vec Ideal S10000x128 .f32) (wv : Vec Ideal S128x128 .f32) (bv : Vec Ideal S1x128 .f32)
    (r : Fin 10000) (c : Fin 128) :
    k0_pay1 (F := Ideal) xb wv bv eb (ix2 r c) = entry xb eb wv (fun c => bv (ix2 0 c)) r c := by
  unfold k0_pay1 entry
  dsimp only
  rw [addf_apply, addf_apply, product_apply, bias_apply]

/-- The same at any index of the block, written through its two coordinates. -/
theorem payload_at (xb eb : Vec Ideal S10000x128 .f32) (wv : Vec Ideal S128x128 .f32) (bv : Vec Ideal S1x128 .f32)
    (j : S10000x128.Idx) :
    k0_pay1 (F := Ideal) xb wv bv eb j = entry xb eb wv (fun c => bv (ix2 0 c)) (j 0) (j 1) := by
  obtain ⟨r, c, rfl⟩ : ∃ (r : Fin 10000) (c : Fin 128), j = ix2 r c := ⟨j 0, j 1, eq_ix2 j⟩
  exact payload_apply xb eb wv bv r c

end Cert.KernelIdeal.Block

end
-- ==== Proof.KernelValue.lean ====
/-
  The kernel's result array is the node table.

  The grid has 10 points; at point t the windows of x, of emb and of the output all sit on rows
  10000·t … 10000·t + 9999 (all 128 columns), while w and the bias row are fetched whole. So what point t writes
  back is rows 10000·t … of the node table of the arrays as the kernel finds them; the ten blocks tile the 100000
  rows (row i lies in block i / 10000), so after the run the output array IS the node table. The bias row the
  kernel finds was made by the host from the bias vector by a reshape [128] → [1, 128]: its entry (0, c) is b(c).
-/
import proofs.«177533_g1967095022088_cont_8to1_1261_19_alg».proof.Proof.Gen.KernelIdeal.Value
import proofs.«177533_g1967095022088_cont_8to1_1261_19_alg».proof.Proof.KernelBlock
import Idealize.ShloMosaic.Lib.StableHlo.Run

set_option maxRecDepth 16384

noncomputable section

open scoped BigOperators

namespace Cert.KernelIdeal.TableValue

open Cert.KernelIdeal Cert.KernelIdeal.Gen Idealize.ShloMosaic Idealize.ShloMosaic.TcCoe Idealize.SL.Sem
open Idealize.ShloMosaic.ValueIdx Cert.NodeTable
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window sits at grid point t, decided over the 10 points: x, emb and the output on block-row t,
    w and the bias row at the origin. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias row as the kernel finds it: the host's reshape of the bias vector. -/
theorem bias_row (c : Dev nD) :
    (V m c main_v0 : S1x128.Idx → EReal) = shapeCast S1x128 (m ((c : Thread nD τ).loc main_arg3)) shapeCasts_S128_S1x128 := by
  dsimp only [Gen.V, Gen.hostOps0]; after_results; rfl

/-- Its entry (0, k) is b(k). -/
theorem bias_row_apply (c : Dev nD) (k : Fin 128) :
    (V m c main_v0 : S1x128.Idx → EReal) (ix2 0 k) = m ((c : Thread nD τ).loc main_arg3) (ix1 k) :=
  (congrFun (bias_row m c) (ix2 0 k)).trans
    ((shapeCast_addUnit_apply ![128] (m ((c : Thread nD τ).loc main_arg3)) shapeCasts_S128_S1x128 (ix2 0 k)).trans
      (congrArg (m ((c : Thread nD τ).loc main_arg3)) (funext fun a => by match a with | ⟨0, _⟩ => rfl)))

/-- WHAT POINT t WRITES BACK is block t of the node table of the arrays as the kernel finds them. -/
theorem flushed_eq (c : Dev nD) (t : Fin cfg0.N) :
    (dats m 0 c).flushed 4 t = ((cfg0.win 4).blk t).view.read (Elt Ideal)
      (nodeRepr (V m c main_arg0) (V m c main_arg1) (V m c main_arg2) (m ((c : Thread nD τ).loc main_arg3))) := by
  show (cfg0.win 4).cut (grid0.coords t) ((dats m 0 c).after 4 t) = _
  rw [after0_4]
  unfold out0_4
  rw [View.canon_unit_zero origin]
  simp only [View.ld_unit_zero (S := S10000x128) origin, View.ld_unit_zero (S := S128x128) origin,
    View.ld_unit_zero (S := S1x128) origin]
  obtain ⟨e00, e01, e10, e11, e20, e21, e30, e31, e40, e41⟩ := block_rows t
  funext j
  show k0_pay1 (iblk m c 0 t) (iblk m c 2 t) (iblk m c 3 t) (iblk m c 1 t) j
    = entry (V m c main_arg0) (V m c main_arg1) (V m c main_arg2) (fun k => m ((c : Thread nD τ).loc main_arg3) (ix1 k))
        ((((cfg0.win 4).blk t).view.emb j) 0) ((((cfg0.win 4).blk t).view.emb j) 1)
  refine (Block.payload_at (iblk m c 0 t) (iblk m c 1 t) (iblk m c 2 t) (iblk m c 3 t) j).trans ?_
  have hj0 : (j 0).val < 10000 := (j 0).isLt
  have hj1 : (j 1).val < 128 := (j 1).isLt
  refine entry_congr (fun k => ?_) ?_ (fun k => ?_) ?_
  · -- row (j 0) of the block of x is row 10000·t + (j 0) of x
    show V m c main_arg0 (((cfg0.win 0).blk t).view.emb (ix2 (j 0) k)) = V m c main_arg0 (ix2 ((((cfg0.win 4).blk t).view.emb j) 0) k)
    refine congrArg (V m c main_arg0) (funext fun a => Fin.ext ?_)
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 128 + 1 * k.val = k.val; omega
  · -- the same for emb
    show V m c main_arg1 (((cfg0.win 1).blk t).view.emb (ix2 (j 0) (j 1))) = V m c main_arg1 (ix2 ((((cfg0.win 4).blk t).view.emb j) 0) ((((cfg0.win 4).blk t).view.emb j) 1))
    refine congrArg (V m c main_arg1) (funext fun a => Fin.ext ?_)
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 128 + 1 * (j 1).val = win0_4.index t (1 : Fin 2) * 128 + 1 * (j 1).val; omega
  · -- w is fetched whole: its row (j 1) is row (j 1)
    show V m c main_arg2 (((cfg0.win 2).blk t).view.emb (ix2 (j 1) k)) = V m c main_arg2 (ix2 ((((cfg0.win 4).blk t).view.emb j) 1) k)
    refine congrArg (V m c main_arg2) (funext fun a => Fin.ext ?_)
    match a with
    | ⟨0, _⟩ => show win0_2.index t (0 : Fin 2) * 128 + 1 * (j 1).val = win0_4.index t (1 : Fin 2) * 128 + 1 * (j 1).val; omega
    | ⟨1, _⟩ => show win0_2.index t (1 : Fin 2) * 128 + 1 * k.val = k.val; omega
  · -- the bias row is fetched whole, and is the bias vector
    show V m c main_v0 (((cfg0.win 3).blk t).view.emb (ix2 0 (j 1))) = m ((c : Thread nD τ).loc main_arg3) (ix1 ((((cfg0.win 4).blk t).view.emb j) 1))
    refine (congrArg (V m c main_v0) (funext fun a => Fin.ext ?_)).trans (bias_row_apply m c ((((cfg0.win 4).blk t).view.emb j) 1))
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

/-- An index of the output array is in point t's block iff each coordinate is in the block's range on its axis. -/
theorem mem_block (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v1).slice (win0_4.rect t)).set ↔ _
  rw [View.set_slice_whole, Rect.mem_set_unit]
  exact Iff.rfl

/-- Every index is in some point's block: row i is in block i / 10000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, -, -, -, -, e40, e41⟩ := block_rows t
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- THE OUTPUT ARRAY after the run is the node table of the four arguments. -/
theorem final (c : Dev nD) :
    (dats m 0 c).arrAt 4 cfg0.N = nodeRepr (m ((c : Thread nD τ).loc main_arg0)) (m ((c : Thread nD τ).loc main_arg1))
      (m ((c : Thread nD τ).loc main_arg2)) (m ((c : Thread nD τ).loc main_arg3)) := by
  have h := (dats m 0 c).arrAt_eq_of_cover 4
    (nodeRepr (V m c main_arg0) (V m c main_arg1) (V m c main_arg2) (m ((c : Thread nD τ).loc main_arg3)))
    (fun t _ => flushed_eq m c t) cover
  rw [V_main_arg0, V_main_arg1, V_main_arg2] at h
  exact h

/-- The kernel's run: every weakly fair execution ends with the output array at the node table of the arguments,
    the arguments unchanged. -/
theorem run : θ_run defs (onTc (τ := τ) (main (F := Ideal))) ⟨m, fun _ => 0, ρ⟩ fun r => ∀ c : Dev nD,
      r.2.mem ((c : Thread nD τ).loc main_v1) = nodeRepr (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.TableValue

end
-- ==== Proof.RefValue.lean ====
/-
  The host program computes the node table.

  Read one operation at a time: w is transposed, x is multiplied by the transpose (entry (r, c) is the sum over k of
  x(r, k) · wᵀ(k, c) = x(r, k) · w(c, k)), the bias vector is made a row and repeated down the rows, the two are
  added, and emb is added ON THE LEFT. Entry (r, c) is therefore emb(r, c) + (∑ₖ x(r, k) · w(c, k) + b(c)), which is
  the node table's entry by commutativity of addition on the extended reals.
-/
import proofs.«177533_g1967095022088_cont_8to1_1261_19_alg».proof.Proof.Gen.ReferenceIdeal.Read
import proofs.«177533_g1967095022088_cont_8to1_1261_19_alg».proof.Proof.NodeTable

noncomputable section

open scoped BigOperators

namespace Cert.ReferenceIdeal.RefValue

open Cert.ReferenceIdeal Cert.ReferenceIdeal.Read Idealize.ShloMosaic Idealize.ShloMosaic.ValueIdx Cert.NodeTable

/-- The left operand of the product at output (r, c) and contraction index k is x(r, k). -/
theorem lidx_eq (r : Fin 100000) (c k : Fin 128) : lidx_main_v1 (ix2 r c) k = ix2 r k :=
  funext fun a => Fin.ext (by match a with | ⟨0, _⟩ => rfl | ⟨1, _⟩ => rfl)

/-- The right operand there is wᵀ(k, c), which the transpose reads at w(c, k). -/
theorem ridx_eq (r : Fin 100000) (c k : Fin 128) : idx_main_v0 (ridx_main_v1 (ix2 r c) k) = ix2 c k :=
  funext fun a => Fin.ext (by match a with | ⟨0, _⟩ => rfl | ⟨1, _⟩ => rfl)

/-- The bias repeated down the rows, at (r, c), is b(c). -/
theorem bidx_eq (r : Fin 100000) (c : Fin 128) : idx_main_v2 (idx_main_v3 (ix2 r c)) = ix1 c :=
  funext fun a => Fin.ext (by match a with | ⟨0, _⟩ => rfl)

/-- The host program's result is the node table of its four arguments. -/
theorem ref_eq (x emb : FVec Ideal S100000x128 .f32) (w : FVec Ideal S128x128 .f32) (b : FVec Ideal S128 .f32) :
    val_main_v5 (F := Ideal) x emb w b = nodeRepr x emb w b := by
  funext i
  obtain ⟨r, c, rfl⟩ : ∃ (r : Fin 100000) (c : Fin 128), i = ix2 r c := ⟨i 0, i 1, eq_ix2 i⟩
  rw [val_main_v5_apply, val_main_v4_apply, val_main_v1_apply, val_main_v3_apply, val_main_v2_apply]
  simp only [val_main_v0_apply, lidx_eq, ridx_eq, bidx_eq]
  exact add_comm _ _

end Cert.ReferenceIdeal.RefValue

end
-- ==== Proof.lean ====
/-
  node_repr = emb + (x · wᵀ + b): the blocked kernel against the host reference, at the extended reals.

  Both programs compute, for every node r and column c,

      ( ∑ₖ x(r, k) · w(c, k)  +  b(c) )  +  emb(r, c).

  The host program transposes w, multiplies, adds the bias repeated down the rows and adds emb on the left; its
  entry is emb(r, c) + (∑ₖ x(r, k) · w(c, k) + b(c)), equal to the above because addition of extended reals is
  commutative (Proof/RefValue.lean). The kernel runs over 10 blocks of 10000 rows; on each it multiplies the block
  of x by wᵀ (contracting the second axis of both operands, into a zero accumulator), adds the bias row and then the
  block of emb, which is the expression above on the block's rows (Proof/KernelBlock.lean); the ten blocks tile the
  100000 rows, so the output array is the whole table (Proof/KernelValue.lean). The sums on the two sides are the
  same sums of the same products, in the same order of k, so no entry needs to be finite and the precondition is
  never opened.

  The three runs (termination, no fault, arguments unchanged) are the generated frames of the two kernel programs
  and the generated run of the host program; the idealization rewrote no operation, so there is nothing to
  preserve beyond the program text itself.
-/
import proofs.«177533_g1967095022088_cont_8to1_1261_19_alg».proof.Defs
import proofs.«177533_g1967095022088_cont_8to1_1261_19_alg».proof.Proof.Gen.Kernel
import proofs.«177533_g1967095022088_cont_8to1_1261_19_alg».proof.Proof.Gen.Kernel.Skeleton
import proofs.«177533_g1967095022088_cont_8to1_1261_19_alg».proof.Proof.Gen.Kernel.Launch
import proofs.«177533_g1967095022088_cont_8to1_1261_19_alg».proof.Proof.Gen.Kernel.Points
import proofs.«177533_g1967095022088_cont_8to1_1261_19_alg».proof.Proof.Gen.Kernel.Frame
import proofs.«177533_g1967095022088_cont_8to1_1261_19_alg».proof.Proof.Gen.KernelIdeal
import proofs.«177533_g1967095022088_cont_8to1_1261_19_alg».proof.Proof.Gen.KernelIdeal.Skeleton
import proofs.«177533_g1967095022088_cont_8to1_1261_19_alg».proof.Proof.Gen.KernelIdeal.Launch
import proofs.«177533_g1967095022088_cont_8to1_1261_19_alg».proof.Proof.Gen.KernelIdeal.Points
import proofs.«177533_g1967095022088_cont_8to1_1261_19_alg».proof.Proof.Gen.KernelIdeal.Frame
import proofs.«177533_g1967095022088_cont_8to1_1261_19_alg».proof.Proof.Gen.ReferenceIdeal
import proofs.«177533_g1967095022088_cont_8to1_1261_19_alg».proof.Proof.Gen.Pre_finite_inputs
import proofs.«177533_g1967095022088_cont_8to1_1261_19_alg».proof.Proof.Gen.KernelIdeal.Value
import proofs.«177533_g1967095022088_cont_8to1_1261_19_alg».proof.Proof.Gen.ReferenceIdeal.Run
import proofs.«177533_g1967095022088_cont_8to1_1261_19_alg».proof.Proof.Gen.ReferenceIdeal.Read
import proofs.«177533_g1967095022088_cont_8to1_1261_19_alg».proof.Proof.KernelValue
import proofs.«177533_g1967095022088_cont_8to1_1261_19_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The host program's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's output array and the host program's result are both the node table of
    those arguments. -/
theorem algebraic : Cert.algebraic_KernelIdeal_ReferenceIdeal := by
  intro m ρ m' ρ' _ hagree
  refine ⟨fun c => Cert.NodeTable.nodeRepr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.TableValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
